-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S1024x3072 : Shape := ⟨2, ![1024, 3072]⟩
abbrev S1x1024 : Shape := ⟨2, ![1, 1024]⟩
abbrev S3072 : Shape := ⟨1, ![3072]⟩
abbrev S1x3072 : Shape := ⟨2, ![1, 3072]⟩
abbrev S256x1024 : Shape := ⟨2, ![256, 1024]⟩
abbrev S256x4096 : Shape := ⟨2, ![256, 4096]⟩
abbrev S256x3072 : Shape := ⟨2, ![256, 3072]⟩

abbrev nBuf : Space → Nat
  | .hbm => 33
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x4096, .f32⟩
  | .hbm, ⟨20, _⟩ => ⟨S1024x4096, .bf16⟩
  | .hbm, ⟨21, _⟩ => ⟨S1024x3072, .f32⟩
  | .hbm, ⟨22, _⟩ => ⟨S1024x3072, .bf16⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S3072, .f32⟩
  | .hbm, ⟨30, _⟩ => ⟨S1x3072, .f32⟩
  | .hbm, ⟨31, _⟩ => ⟨S4096x1024, .f32⟩
  | .hbm, ⟨32, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x1024, .bf16⟩
  | .local _ .vmem, ⟨8, _⟩ => ⟨S1024x3072, .bf16⟩
  | .local _ .vmem, ⟨9, _⟩ => ⟨S1x1024, .f32⟩
  | .local _ .vmem, ⟨10, _⟩ => ⟨S1x3072, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024x1024_S1024x1024_S1024x1024_S1024x3072_d1 : Shape.Concatenates [S1024x1024, S1024x1024, S1024x1024] S1024x3072 1
  shapeCasts_S1024_S1x1024 : S1024.ShapeCasts S1x1024
  concatenates_S1024_S1024_S1024_S3072_d0 : Shape.Concatenates [S1024, S1024, S1024] S3072 0
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S256x4096_o0_0_S256x1024 : S256x4096.Slices ![0, 0] S256x1024
  slices_S256x4096_o0_1024_S256x3072 : S256x4096.Slices ![0, 1024] S256x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x4096_S256x4096_1_0_0_1_n_n_wf : DotDims.WF S256x1024 S1024x4096 S256x4096 [1] [0] [0] [1] [] []
  dot_S256x1024_S1024x1024_S256x1024_1_0_0_1_n_n_wf : DotDims.WF S256x1024 S1024x1024 S256x1024 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x3072.size a ≤ S1024x3072.size a
  hwx0_5 : ∀ i : grid0.Coords, EltTy.bits .bf16 = 32 ∨ (Rect.block (s := S1024x3072) S1024x3072.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3072.size a ≤ S1x3072.size a
  hwx0_7 : ∀ i : grid0.Coords, EltTy.bits .f32 = 32 ∨ (Rect.block (s := S1x3072) S1x3072.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .f32 = 32 ∨ (Rect.block (s := S4096x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x3072 : Shape := ⟨2, ![1024, 3072]⟩
abbrev S3072 : Shape := ⟨1, ![3072]⟩
abbrev S4096x3072 : Shape := ⟨2, ![4096, 3072]⟩
abbrev S1x3072 : Shape := ⟨2, ![1, 3072]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x3072, .f32⟩
  | .hbm, ⟨29, _⟩ => ⟨S3072, .f32⟩
  | .hbm, ⟨30, _⟩ => ⟨S1024x3072, .f32⟩
  | .hbm, ⟨31, _⟩ => ⟨S3072, .f32⟩
  | .hbm, ⟨32, _⟩ => ⟨S4096x3072, .f32⟩
  | .hbm, ⟨33, _⟩ => ⟨S1x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S1x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S_, .f32⟩
  | .hbm, ⟨47, _⟩ => ⟨S4096x3072, .f32⟩
  | .hbm, ⟨48, _⟩ => ⟨S4096x3072, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_cst_0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  bcast_S_S4096x3072 : S_.BroadcastsInDim S4096x3072 (![] : Fin 0 → Fin S4096x3072.rank)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  dot_S4096x1024_S1024x1024_S4096x1024_1_0_0_1_n_n_wf : DotDims.WF S4096x1024 S1024x1024 S4096x1024 [1] [0] [0] [1] [] []
  dot_S4096x1024_S1024x3072_S4096x3072_1_0_0_1_n_n_wf : DotDims.WF S4096x1024 S1024x3072 S4096x3072 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x3072_S4096x3072_1_0_0_1_n_n : DotDims S4096x1024 S1024x3072 S4096x3072 where
  lhsContracting := [1]
  rhsContracting := [0]
  lhsNonContracting := [0]
  rhsNonContracting := [1]
  lhsBatch := []
  rhsBatch := []
  wf := dot_S4096x1024_S1024x3072_S4096x3072_1_0_0_1_n_n_wf

class Facts : Prop extends Facts₀ where

variable [Facts]
-- ==== Proof.FrameBits.lean ====
/- The frame of the LSTM-cell program: @main is twelve host operations and one pipelined region over a grid of
   sixteen points. This file runs the region's body once, at a generic point, as a triple over the eight input
   blocks, says what each of the two output buffers holds afterwards, and from that derives that every
   execution of @main terminates with the nineteen argument arrays as they were launched. -/
import proofs.«143810_j49349174231639_2_alg».proof.Proof.Gen.Kernel.Launch
import proofs.«143810_j49349174231639_2_alg».proof.Proof.Gen.Kernel.Skeleton
import proofs.«143810_j49349174231639_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region -/

/-- What core `c`'s buffers hold when the region starts: the launch contents carried through the twelve host
    operations (three concatenations, three narrowings to bf16, four sums, two reshapes). -/
abbrev V (c : Dev nD) (b : Ref sig .tc) : Buf (Elt F) ((c : Thread nD τ).loc b) :=
  StableHlo.after (List.flatten [hostOps0]) (fun b => m (c, b)) b

/-- None of the host operations allocates a buffer. -/
theorem hostOps0_fresh : (hostOps0 : List (HloOp τ sig (Elt F))).Forall fun op => op.fresh = ∅ := by
  simp only [List.Forall]; repeat' constructor

/-- @main is the host operations followed by the region, so the region starts at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Each host operation writes only its own result, and no result is `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The blocks the windows stage -/

/-- The block of window `w` at point `t`: the part of its array, as the region finds it, that the window's index
    map selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block whenever the body is called, for any proof data over `V`
    whose body leaves that buffer unchanged. It is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block whenever the body is called, for any proof data over `V`
    whose body leaves that buffer unchanged. It is fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block whenever the body is called, for any proof data over `V`
    whose body leaves that buffer unchanged. It is fetched at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block whenever the body is called, for any proof data over `V`
    whose body leaves that buffer unchanged. It is fetched at the first point only; later its index has not moved and the body left it in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block whenever the body is called, for any proof data over `V`
    whose body leaves that buffer unchanged. It is fetched at the first point only; later its index has not moved and the body left it in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block whenever the body is called, for any proof data over `V`
    whose body leaves that buffer unchanged. It is fetched at the first point only; later its index has not moved and the body left it in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block whenever the body is called, for any proof data over `V`
    whose body leaves that buffer unchanged. It is fetched at the first point only; later its index has not moved and the body left it in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block whenever the body is called, for any proof data over `V`
    whose body leaves that buffer unchanged. It is fetched at the first point only; later its index has not moved and the body left it in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the argument arrays -/

/-- If @main runs to a state where every window's array holds what the proof data computes and every other
    buffer is as the region found it, then every argument array ends as launched: the three staged arguments are
    inputs, which the pipeline never writes back, and the other sixteen are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The rectangles the body reads and writes -/

/-- Each access covers its whole buffer: offset zero, the buffer's own extents. -/
abbrev r0_0 : Rect S256x1024 := Rect.unit (s := S256x1024) ![0, 0] S256x1024.size inb_S256x1024_S256x1024_0_0
abbrev r0_1 : Rect S1024x4096 := Rect.unit (s := S1024x4096) ![0, 0] S1024x4096.size inb_S1024x4096_S1024x4096_0_0
abbrev r0_2 : Rect S1024x1024 := Rect.unit (s := S1024x1024) ![0, 0] S1024x1024.size inb_S1024x1024_S1024x1024_0_0
abbrev r0_3 : Rect S1x1024 := Rect.unit (s := S1x1024) ![0, 0] S1x1024.size inb_S1x1024_S1x1024_0_0
abbrev r0_4 : Rect S1024x3072 := Rect.unit (s := S1024x3072) ![0, 0] S1024x3072.size inb_S1024x3072_S1024x3072_0_0
abbrev r0_5 : Rect S1x3072 := Rect.unit (s := S1x3072) ![0, 0] S1x3072.size inb_S1x3072_S1x3072_0_0

/-! ## What the body leaves in the two output buffers -/

/-- Window 8's buffer after the body, as a function of the eight input blocks: one store over the whole buffer, of
    the new hidden state (the output gate times the hyperbolic tangent of the new cell state). -/
def out0_8 (x0 : Vec F S256x1024 .f32) (x1 : Vec F S256x1024 .f32) (x2 : Vec F S256x1024 .f32) (x3 : Vec F S1024x4096 .bf16) (x4 : Vec F S1024x1024 .bf16) (x5 : Vec F S1024x3072 .bf16) (x6 : Vec F S1x1024 .f32) (x7 : Vec F S1x3072 .f32) : Vec F S256x1024 .f32 :=
  View.canon [⟨r0_0, k0_pay5 (View.ld x0 r0_0) (View.ld x1 r0_0) (View.ld x2 r0_0) (View.ld x3 r0_1) (View.ld x4 r0_2) (View.ld x6 r0_3) (View.ld x5 r0_4) (View.ld x7 r0_5)⟩]

/-- Window 9's buffer after the body: one store over the whole buffer, of the new cell state. -/
def out0_9 (x0 : Vec F S256x1024 .f32) (x1 : Vec F S256x1024 .f32) (x2 : Vec F S256x1024 .f32) (x3 : Vec F S1024x4096 .bf16) (x4 : Vec F S1024x1024 .bf16) (x5 : Vec F S1024x3072 .bf16) (x6 : Vec F S1x1024 .f32) (x7 : Vec F S1x3072 .f32) : Vec F S256x1024 .f32 :=
  View.canon [⟨r0_0, k0_pay4 (View.ld x0 r0_0) (View.ld x1 r0_0) (View.ld x2 r0_0) (View.ld x3 r0_1) (View.ld x4 r0_2) (View.ld x6 r0_3) (View.ld x5 r0_4) (View.ld x7 r0_5)⟩]

/-- The one store is a single tile the size of the buffer, so it covers every index. -/
theorem cover0_8 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y
theorem cover0_9 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-! ## The body as a triple -/

set_option maxHeartbeats 1000000 in
/-- The body on ten whole buffers — the eight inputs holding `x0` … `x7`, the two outputs holding anything — runs to
    a state with the inputs unchanged and the outputs at `out0_8` and `out0_9` of the inputs. It loads every buffer
    whole (the two outputs' loads are not used), and each store replaces a whole output buffer. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x1024 .bf16) (harg5 : arg5.IsWhole) (arg6 : Memref sig .tc .vmem S1024x3072 .bf16) (harg6 : arg6.IsWhole) (arg7 : Memref sig .tc .vmem S1x1024 .f32) (harg7 : arg7.IsWhole) (arg8 : Memref sig .tc .vmem S1x3072 .f32) (harg8 : arg8.IsWhole) (arg9 : Memref sig .tc .vmem S256x1024 .f32) (harg9 : arg9.IsWhole) (arg10 : Memref sig .tc .vmem S256x1024 .f32) (harg10 : arg10.IsWhole)
    (x0 : Vec F S256x1024 .f32) (x1 : Vec F S256x1024 .f32) (x2 : Vec F S256x1024 .f32) (x3 : Vec F S1024x4096 .bf16) (x4 : Vec F S1024x1024 .bf16) (x5 : Vec F S1024x3072 .bf16) (x6 : Vec F S1x1024 .f32) (x7 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The proof data of the pipeline -/

/-- On core `c`: the arrays are as the region finds them; after the body at point `t` every input buffer still holds
    its block and the two output buffers hold `out0_8` and `out0_9` of the eight blocks; the invariant is the
    buffers and the generator state the body never touches; all shares are full and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The arrays of the proof data are `V`'s, by projection. -/
theorem A_eq (c : Dev nD) (w : Fin cfg0.W) : (dats m 0 c).A w = V m c (Pipeline.arrRef spec0 w) := by
  dsimp only [dats]

/-- What the body leaves, one window at a time. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]

/-- What the body finds in each input buffer: the window's block, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation at a generic point -/

/-- What the pipeline hands the body at point `t`: the invariant, the core's debts, and each window's current
    staging buffer at what the proof data says it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any point the input buffers hold their blocks, so the body's triple applies at those blocks; the invariant and
    the debts are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the pipeline's launch asks of the body, at every point. -/
theorem body_obligation (c : Dev nD) : BodyObligation (dats (F := F) m 0 c) (defs₀ (F := F)) Variants.none () Set.univ := fun t => by
  rw [bigSep_W0, bigSep_W0]
  exact sound_body m c t

/-! ## The run of @main and the frame -/

set_option backward.isDefEq.respectTransparency.types false in
/-- From any memory with all counters at zero, every weakly fair execution of @main terminates, in a state where
    each window's array holds what the proof data computes and every other unscoped buffer is as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Frame.run_main' depends on axioms: [propext, Classical.choice, Quot.sound] -/
#guard_msgs in #print axioms run_main

/-- The frame: @main terminates and leaves each of its nineteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Frame

end
-- ==== Proof.FrameIdeal.lean ====
/- The frame of the LSTM-cell program: @main is twelve host operations and one pipelined region over a grid of
   sixteen points. This file runs the region's body once, at a generic point, as a triple over the eight input
   blocks, says what each of the two output buffers holds afterwards, and from that derives that every
   execution of @main terminates with the nineteen argument arrays as they were launched. -/
import proofs.«143810_j49349174231639_2_alg».proof.Proof.Gen.KernelIdeal.Launch
import proofs.«143810_j49349174231639_2_alg».proof.Proof.Gen.KernelIdeal.Skeleton
import proofs.«143810_j49349174231639_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region -/

/-- What core `c`'s buffers hold when the region starts: the launch contents carried through the twelve host
    operations (three concatenations, three narrowings to bf16, four sums, two reshapes). -/
abbrev V (c : Dev nD) (b : Ref sig .tc) : Buf (Elt F) ((c : Thread nD τ).loc b) :=
  StableHlo.after (List.flatten [hostOps0]) (fun b => m (c, b)) b

/-- None of the host operations allocates a buffer. -/
theorem hostOps0_fresh : (hostOps0 : List (HloOp τ sig (Elt F))).Forall fun op => op.fresh = ∅ := by
  simp only [List.Forall]; repeat' constructor

/-- @main is the host operations followed by the region, so the region starts at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Each host operation writes only its own result, and no result is `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- Each host operation writes only its own result, and no result is `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The blocks the windows stage -/

/-- The block of window `w` at point `t`: the part of its array, as the region finds it, that the window's index
    map selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block whenever the body is called, for any proof data over `V`
    whose body leaves that buffer unchanged. It is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block whenever the body is called, for any proof data over `V`
    whose body leaves that buffer unchanged. It is fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block whenever the body is called, for any proof data over `V`
    whose body leaves that buffer unchanged. It is fetched at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block whenever the body is called, for any proof data over `V`
    whose body leaves that buffer unchanged. It is fetched at the first point only; later its index has not moved and the body left it in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block whenever the body is called, for any proof data over `V`
    whose body leaves that buffer unchanged. It is fetched at the first point only; later its index has not moved and the body left it in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block whenever the body is called, for any proof data over `V`
    whose body leaves that buffer unchanged. It is fetched at the first point only; later its index has not moved and the body left it in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block whenever the body is called, for any proof data over `V`
    whose body leaves that buffer unchanged. It is fetched at the first point only; later its index has not moved and the body left it in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block whenever the body is called, for any proof data over `V`
    whose body leaves that buffer unchanged. It is fetched at the first point only; later its index has not moved and the body left it in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the argument arrays -/

/-- If @main runs to a state where every window's array holds what the proof data computes and every other
    buffer is as the region found it, then every argument array ends as launched: the three staged arguments are
    inputs, which the pipeline never writes back, and the other sixteen are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The rectangles the body reads and writes -/

/-- Each access covers its whole buffer: offset zero, the buffer's own extents. -/
abbrev r0_0 : Rect S256x1024 := Rect.unit (s := S256x1024) ![0, 0] S256x1024.size inb_S256x1024_S256x1024_0_0
abbrev r0_1 : Rect S1024x4096 := Rect.unit (s := S1024x4096) ![0, 0] S1024x4096.size inb_S1024x4096_S1024x4096_0_0
abbrev r0_2 : Rect S1024x1024 := Rect.unit (s := S1024x1024) ![0, 0] S1024x1024.size inb_S1024x1024_S1024x1024_0_0
abbrev r0_3 : Rect S1x1024 := Rect.unit (s := S1x1024) ![0, 0] S1x1024.size inb_S1x1024_S1x1024_0_0
abbrev r0_4 : Rect S1024x3072 := Rect.unit (s := S1024x3072) ![0, 0] S1024x3072.size inb_S1024x3072_S1024x3072_0_0
abbrev r0_5 : Rect S1x3072 := Rect.unit (s := S1x3072) ![0, 0] S1x3072.size inb_S1x3072_S1x3072_0_0

/-! ## What the body leaves in the two output buffers -/

/-- Window 8's buffer after the body, as a function of the eight input blocks: one store over the whole buffer, of
    the new hidden state (the output gate times the hyperbolic tangent of the new cell state). -/
def out0_8 (x0 : Vec F S256x1024 .f32) (x1 : Vec F S256x1024 .f32) (x2 : Vec F S256x1024 .f32) (x3 : Vec F S1024x4096 .bf16) (x4 : Vec F S1024x1024 .bf16) (x5 : Vec F S1024x3072 .bf16) (x6 : Vec F S1x1024 .f32) (x7 : Vec F S1x3072 .f32) : Vec F S256x1024 .f32 :=
  View.canon [⟨r0_0, k0_pay5 (View.ld x0 r0_0) (View.ld x1 r0_0) (View.ld x2 r0_0) (View.ld x3 r0_1) (View.ld x4 r0_2) (View.ld x6 r0_3) (View.ld x5 r0_4) (View.ld x7 r0_5)⟩]

/-- Window 9's buffer after the body: one store over the whole buffer, of the new cell state. -/
def out0_9 (x0 : Vec F S256x1024 .f32) (x1 : Vec F S256x1024 .f32) (x2 : Vec F S256x1024 .f32) (x3 : Vec F S1024x4096 .bf16) (x4 : Vec F S1024x1024 .bf16) (x5 : Vec F S1024x3072 .bf16) (x6 : Vec F S1x1024 .f32) (x7 : Vec F S1x3072 .f32) : Vec F S256x1024 .f32 :=
  View.canon [⟨r0_0, k0_pay4 (View.ld x0 r0_0) (View.ld x1 r0_0) (View.ld x2 r0_0) (View.ld x3 r0_1) (View.ld x4 r0_2) (View.ld x6 r0_3) (View.ld x5 r0_4) (View.ld x7 r0_5)⟩]

/-- The one store is a single tile the size of the buffer, so it covers every index. -/
theorem cover0_8 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y
theorem cover0_9 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-! ## The body as a triple -/

set_option maxHeartbeats 1000000 in
/-- The body on ten whole buffers — the eight inputs holding `x0` … `x7`, the two outputs holding anything — runs to
    a state with the inputs unchanged and the outputs at `out0_8` and `out0_9` of the inputs. It loads every buffer
    whole (the two outputs' loads are not used), and each store replaces a whole output buffer. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x1024 .bf16) (harg5 : arg5.IsWhole) (arg6 : Memref sig .tc .vmem S1024x3072 .bf16) (harg6 : arg6.IsWhole) (arg7 : Memref sig .tc .vmem S1x1024 .f32) (harg7 : arg7.IsWhole) (arg8 : Memref sig .tc .vmem S1x3072 .f32) (harg8 : arg8.IsWhole) (arg9 : Memref sig .tc .vmem S256x1024 .f32) (harg9 : arg9.IsWhole) (arg10 : Memref sig .tc .vmem S256x1024 .f32) (harg10 : arg10.IsWhole)
    (x0 : Vec F S256x1024 .f32) (x1 : Vec F S256x1024 .f32) (x2 : Vec F S256x1024 .f32) (x3 : Vec F S1024x4096 .bf16) (x4 : Vec F S1024x1024 .bf16) (x5 : Vec F S1024x3072 .bf16) (x6 : Vec F S1x1024 .f32) (x7 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The proof data of the pipeline -/

/-- On core `c`: the arrays are as the region finds them; after the body at point `t` every input buffer still holds
    its block and the two output buffers hold `out0_8` and `out0_9` of the eight blocks; the invariant is the
    buffers and the generator state the body never touches; all shares are full and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The arrays of the proof data are `V`'s, by projection. -/
theorem A_eq (c : Dev nD) (w : Fin cfg0.W) : (dats m 0 c).A w = V m c (Pipeline.arrRef spec0 w) := by
  dsimp only [dats]

/-- What the body leaves, one window at a time. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]

/-- What the body finds in each input buffer: the window's block, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation at a generic point -/

/-- What the pipeline hands the body at point `t`: the invariant, the core's debts, and each window's current
    staging buffer at what the proof data says it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any point the input buffers hold their blocks, so the body's triple applies at those blocks; the invariant and
    the debts are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation the pipeline's launch asks of the body, at every point. -/
theorem body_obligation (c : Dev nD) : BodyObligation (dats (F := F) m 0 c) (defs₀ (F := F)) Variants.none () Set.univ := fun t => by
  rw [bigSep_W0, bigSep_W0]
  exact sound_body m c t

/-! ## The run of @main and the frame -/

set_option backward.isDefEq.respectTransparency.types false in
/-- From any memory with all counters at zero, every weakly fair execution of @main terminates, in a state where
    each window's array holds what the proof data computes and every other unscoped buffer is as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Frame.run_main' depends on axioms: [propext, Classical.choice, Quot.sound] -/
#guard_msgs in #print axioms run_main

/-- The frame: @main terminates and leaves each of its nineteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frame

end
-- ==== Proof.Cover.lean ====
/- Where the windows' blocks sit in their arrays. The three row-blocked inputs and the two outputs take block
   (t, 0) at grid point t, blocks of 256 rows by 1024 columns of a 4096 by 1024 array; the five whole-array inputs
   take block (0, 0) at every point. From that: membership in an output block coordinate by coordinate, and the
   sixteen output blocks cover their array. -/
import proofs.«143810_j49349174231639_2_alg».proof.Proof.FrameIdeal
import Idealize.ShloMosaic.Lib.Pipeline.Value

noncomputable section

namespace Cert.LstmValue

open Cert.KernelIdeal Cert.KernelIdeal.Gen Cert.KernelIdeal.Frame Idealize.ShloMosaic Idealize.ShloMosaic.TcCoe Idealize.SL.Sem
open Idealize.ShloMosaic.Pipeline (Dat)

/-- The block index of every window at every grid point, axis by axis, decided over the sixteen points: windows 0, 1, 2,
    8 and 9 are at row-block `t`, column-block 0; windows 3 to 7 stay at block (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

/-- An index of window 8's array lies in the block of point `t` exactly when, on each axis, its coordinate lies in the
    block's range there: the block index times the block's extent, for one extent. -/
theorem mem_blk8 (t : Fin cfg0.N) (i : S4096x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v12_0).slice (win0_8.rect t)).set ↔ _
  rw [View.set_slice_whole, Rect.mem_set_unit]
  exact Iff.rfl

/-- An index of window 9's array lies in the block of point `t` exactly when, on each axis, its coordinate lies in the
    block's range there: the block index times the block's extent, for one extent. -/
theorem mem_blk9 (t : Fin cfg0.N) (i : S4096x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v12_1).slice (win0_9.rect t)).set ↔ _
  rw [View.set_slice_whole, Rect.mem_set_unit]
  exact Iff.rfl

/-- Every index of window 8's array lies in the block some point writes back: the point is the row divided by 256,
    whose block spans those 256 rows and all 1024 columns. -/
theorem cover8 (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  have hN : (i 0).val / 256 < cfg0.N := by rw [show cfg0.N = 16 from N_0]; omega
  obtain ⟨e0, e1, e2, e3, e4, e5, e6, e7, e8, e9, e10, e11, e12, e13, e14, e15, e16, e17, e18, e19⟩ := idx_facts ⟨(i 0).val / 256, hN⟩
  refine ⟨⟨(i 0).val / 256, hN⟩, flush0_8 _, ?_⟩
  rw [mem_blk8]
  intro a
  match a with
  | ⟨0, _⟩ =>
    show win0_8.index ⟨(i 0).val / 256, hN⟩ (0 : Fin 2) * 256 ≤ (i 0).val ∧ (i 0).val < win0_8.index ⟨(i 0).val / 256, hN⟩ (0 : Fin 2) * 256 + 256
    rw [e16]; show (i 0).val / 256 * 256 ≤ (i 0).val ∧ (i 0).val < (i 0).val / 256 * 256 + 256; omega
  | ⟨1, _⟩ =>
    show win0_8.index ⟨(i 0).val / 256, hN⟩ (1 : Fin 2) * 1024 ≤ (i 1).val ∧ (i 1).val < win0_8.index ⟨(i 0).val / 256, hN⟩ (1 : Fin 2) * 1024 + 1024
    rw [e17]; omega

/-- Every index of window 9's array lies in the block some point writes back: the point is the row divided by 256,
    whose block spans those 256 rows and all 1024 columns. -/
theorem cover9 (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  have hN : (i 0).val / 256 < cfg0.N := by rw [show cfg0.N = 16 from N_0]; omega
  obtain ⟨e0, e1, e2, e3, e4, e5, e6, e7, e8, e9, e10, e11, e12, e13, e14, e15, e16, e17, e18, e19⟩ := idx_facts ⟨(i 0).val / 256, hN⟩
  refine ⟨⟨(i 0).val / 256, hN⟩, flush0_9 _, ?_⟩
  rw [mem_blk9]
  intro a
  match a with
  | ⟨0, _⟩ =>
    show win0_9.index ⟨(i 0).val / 256, hN⟩ (0 : Fin 2) * 256 ≤ (i 0).val ∧ (i 0).val < win0_9.index ⟨(i 0).val / 256, hN⟩ (0 : Fin 2) * 256 + 256
    rw [e18]; show (i 0).val / 256 * 256 ≤ (i 0).val ∧ (i 0).val < (i 0).val / 256 * 256 + 256; omega
  | ⟨1, _⟩ =>
    show win0_9.index ⟨(i 0).val / 256, hN⟩ (1 : Fin 2) * 1024 ≤ (i 1).val ∧ (i 1).val < win0_9.index ⟨(i 0).val / 256, hN⟩ (1 : Fin 2) * 1024 + 1024
    rw [e19]; omega

end Cert.LstmValue

end
-- ==== Proof.LibNary3.lean ====
/-
  A host operation over a LITERAL family of three operands (a concatenation of three arrays): after it the result
  buffer holds the operation's function of the three operands' contents, each read AT ITS OWN REFERENCE, so that
  what each operand held can be read in turn. General in the references and the function.
-/
import Idealize.ShloMosaic.Lib.StableHlo.Run

noncomputable section

namespace Cert.LibNary3

open Idealize.ShloMosaic Idealize.ShloMosaic.StableHlo

variable {τ : Topo} {sig : RefSig} {Val : EltTy → Type}

/-- The result of a three-operand host operation at its result buffer: its function of the operands' contents, the
    family spelt operand by operand. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.PrefixValue.lean ====
/-
  What the twelve host operations before the region leave in the five buffers the kernel's resident windows stage,
  as terms of the argument arrays: three concatenations, three narrowings to bf16 (the identity on the extended
  reals), four sums of bias vectors, two views of a vector as a one-row matrix.
-/
import proofs.«143810_j49349174231639_2_alg».proof.Proof.FrameIdeal
import proofs.«143810_j49349174231639_2_alg».proof.Proof.LibNary3
import Idealize.ShloMosaic.Lib.Pipeline.Value
import Idealize.ShloMosaic.PureOps.Ideal
import Idealize.ShloMosaic.Lib.StableHlo.Run

set_option maxRecDepth 16384

noncomputable section

namespace Cert.LstmValue

open Idealize.ShloMosaic Idealize.ShloMosaic.TcCoe Idealize.SL.Sem Idealize.ShloMosaic.StableHlo
open Cert.KernelIdeal Cert.KernelIdeal.Gen Cert.KernelIdeal.Frame

variable (m : (ℓ : Loc nD τ sig) → Buf (Elt Ideal) ℓ)

/-! ## What the host prepared -/

/-- Read what each buffer holds after a line of host operations, outermost operation first: an operation's own result
    buffer holds its function of its operands' contents (a three-operand concatenation's operands each read at its own
    buffer), any other buffer what it held before. -/
macro "prefix_results" : tactic =>
  `(tactic| (simp only [after_cons, after_nil]
             repeat (first
               | rw [unary_result] | rw [binary_result] | rw [reshape_result] | rw [nary4_result] | rw [Cert.LibNary3.nary3_result]
               | (rw [unary_result_ne]; rotate_left; decide)
               | (rw [binary_result_ne]; rotate_left; decide)
               | (rw [reshape_result_ne]; rotate_left; decide)
               | (rw [nary_result_ne]; rotate_left; decide))))

set_option maxHeartbeats 4000000 in
/-- The merged input-side matrix: W_hi, W_ii, W_oi, W_fi side by side (narrowing to bf16 changes no value here). -/
theorem V_wx (c : Dev nD) : (V m c main_v1 : S1024x4096.Idx → EReal) =
    truncf (F := Ideal) .bf16 (concatenate S1024x4096 1 [⟨S1024x1024, (m ((c : Thread nD τ).loc main_arg3))⟩, ⟨S1024x1024, (m ((c : Thread nD τ).loc main_arg7))⟩, ⟨S1024x1024, (m ((c : Thread nD τ).loc main_arg11))⟩, ⟨S1024x1024, (m ((c : Thread nD τ).loc main_arg15))⟩] concatenates_S1024x1024_S1024x1024_S1024x1024_S1024x1024_S1024x4096_d1) bitsLt_bf16_f32 := by
  dsimp only [V]
  simp only [hostOps0, List.flatten_cons, List.flatten_nil, List.append_nil, List.cons_append, List.nil_append]
  prefix_results
  all_goals rfl

set_option maxHeartbeats 4000000 in
/-- The candidate's hidden-side matrix W_hh. -/
theorem V_whh (c : Dev nD) : (V m c main_v4 : S1024x1024.Idx → EReal) = truncf (F := Ideal) .bf16 (m ((c : Thread nD τ).loc main_arg5)) bitsLt_bf16_f32 := by
  dsimp only [V]
  simp only [hostOps0, List.flatten_cons, List.flatten_nil, List.append_nil, List.cons_append, List.nil_append]
  prefix_results
  all_goals rfl

set_option maxHeartbeats 4000000 in
/-- The merged hidden-side gate matrix: W_ih, W_oh, W_fh side by side. -/
theorem V_wg (c : Dev nD) : (V m c main_v3 : S1024x3072.Idx → EReal) =
    truncf (F := Ideal) .bf16 (concatenate S1024x3072 1 [⟨S1024x1024, (m ((c : Thread nD τ).loc main_arg9))⟩, ⟨S1024x1024, (m ((c : Thread nD τ).loc main_arg13))⟩, ⟨S1024x1024, (m ((c : Thread nD τ).loc main_arg17))⟩] concatenates_S1024x1024_S1024x1024_S1024x1024_S1024x3072_d1) bitsLt_bf16_f32 := by
  dsimp only [V]
  simp only [hostOps0, List.flatten_cons, List.flatten_nil, List.append_nil, List.cons_append, List.nil_append]
  prefix_results
  all_goals rfl

set_option maxHeartbeats 4000000 in
/-- The candidate's folded bias b_hi + b_hh, as a row. -/
theorem V_bc (c : Dev nD) : (V m c main_v6 : S1x1024.Idx → EReal) =
    shapeCast S1x1024 (addf (F := Ideal) (φ := .f32) (m ((c : Thread nD τ).loc main_arg4)) (m ((c : Thread nD τ).loc main_arg6))) shapeCasts_S1024_S1x1024 := by
  dsimp only [V]
  simp only [hostOps0, List.flatten_cons, List.flatten_nil, List.append_nil, List.cons_append, List.nil_append]
  prefix_results
  all_goals rfl

set_option maxHeartbeats 4000000 in
/-- The gates' folded bias: b_ii + b_ih, b_oi + b_oh, b_fi + b_fh end to end, as a row. -/
theorem V_bg (c : Dev nD) : (V m c main_v11 : S1x3072.Idx → EReal) =
    shapeCast S1x3072 (concatenate S3072 0 [⟨S1024, addf (F := Ideal) (φ := .f32) (m ((c : Thread nD τ).loc main_arg8)) (m ((c : Thread nD τ).loc main_arg10))⟩, ⟨S1024, addf (F := Ideal) (φ := .f32) (m ((c : Thread nD τ).loc main_arg12)) (m ((c : Thread nD τ).loc main_arg14))⟩, ⟨S1024, addf (F := Ideal) (φ := .f32) (m ((c : Thread nD τ).loc main_arg16)) (m ((c : Thread nD τ).loc main_arg18))⟩] concatenates_S1024_S1024_S1024_S3072_d0) shapeCasts_S3072_S1x3072 := by
  dsimp only [V]
  simp only [hostOps0, List.flatten_cons, List.flatten_nil, List.append_nil, List.cons_append, List.nil_append]
  prefix_results
  all_goals rfl

end Cert.LstmValue

end
-- ==== Proof.LibConcatSame.lean ====
/-
  A concatenation of three or of four pieces of ONE shape along an axis, read at an index: the piece is the one the
  axis coordinate names when divided by the pieces' common extent on that axis, read at the index whose axis
  coordinate is the remainder and whose other coordinates are unchanged. The pieces are given as a literal list, the
  way a program prints a concatenation of three or four operands; the general statement for a family of pieces is
  the library's.
-/
import Idealize.ShloMosaic.Lib.Pipeline.Value
import Idealize.ShloMosaic.Lib.ValueIdx

noncomputable section

namespace Cert.LibConcatSame

open Idealize.ShloMosaic

variable {α : Type} {t s₁ : Shape}

/-- Three pieces of one shape: entry `j` is piece `(j a) / K` at `j` with its axis coordinate reduced modulo `K`. -/
theorem concat3_apply (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (K : Nat) (hK : s₁.size (a.cast hr.symm) = K) (j : t.Idx) (n : Fin 3)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩] h j = (![x0, x1, x2] : Fin 3 → s₁.Idx → α) n i :=
  concatenate_ofFn_apply a (![x0, x1, x2] : Fin 3 → s₁.Idx → α) h hr K hK j n hn i hia hi

/-- Four pieces of one shape, the same way. -/
theorem concat4_apply (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_apply a (![x0, x1, x2, x3] : Fin 4 → s₁.Idx → α) h hr K hK j n hn i hia hi

end Cert.LibConcatSame

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.PayloadAt.lean ====
/-
  The LSTM cell's body, one grid point, read at an entry of its [256, 1024] block, on the extended reals.

  The body holds a block of 256 batch rows of the inputs `x`, of the old hidden state `h` and of the old cell state
  `c`, the whole merged input-side weight matrix `Wx` ([1024, 4096]: the candidate's columns first, then the three
  gates'), the hidden-side matrix `Whh` of the candidate, the merged hidden-side gate matrix `Wg` ([1024, 3072]) and
  the two folded bias rows. Row `p` of the block gives
    cand (p, j)  = Σₖ x (p, k) · Wx (k, j) + Σₖ h (p, k) · Whh (k, j) + bc (0, j)
    gate (p, g)  = logistic (Σₖ x (p, k) · Wx (k, 1024 + g) + Σₖ cand (p, k) · Wg (k, g) + bg (0, g))
    cell (p, j)  = gate (p, 2048 + j) · c (p, j) + gate (p, j) · tanh (cand (p, j))
    hid  (p, j)  = tanh (cell (p, j)) · gate (p, 1024 + j)
  (a change of float format is the identity here, and a matrix product into the zero accumulator is the plain sum).
-/
import proofs.«143810_j49349174231639_2_alg».proof.Proof.Gen.KernelIdeal.Skeleton
import proofs.«143810_j49349174231639_2_alg».proof.Proof.LibPlainMatmul
import proofs.«143810_j49349174231639_2_alg».proof.Proof.LibBlockLayout
import Idealize.ShloMosaic.Lib.ValueIdx
import Idealize.ShloMosaic.Lib.Pipeline.Value
import Idealize.ShloMosaic.PureOps.Ideal.Laws

noncomputable section

open scoped BigOperators

namespace Cert.Lstm

open Idealize.ShloMosaic Idealize.ShloMosaic.ValueIdx
open Cert.KernelIdeal Cert.KernelIdeal.Gen

/-- Column `j` of the candidate's part of the merged input-side matrix. -/
abbrev colC (j : Fin 1024) : Fin 4096 := ⟨j.val, by have := j.isLt; omega⟩
/-- Column `g` of the gates' part of the merged input-side matrix: it starts after the candidate's 1024 columns. -/
abbrev colG (g : Fin 3072) : Fin 4096 := ⟨1024 + g.val, by have := g.isLt; omega⟩
/-- The input gate's, the output gate's and the forget gate's column `j` among the 3072 gate columns. -/
abbrev gI (j : Fin 1024) : Fin 3072 := ⟨j.val, by have := j.isLt; omega⟩
abbrev gO (j : Fin 1024) : Fin 3072 := ⟨1024 + j.val, by have := j.isLt; omega⟩
abbrev gF (j : Fin 1024) : Fin 3072 := ⟨2048 + j.val, by have := j.isLt; omega⟩

/-- The merged input-side product: entry (p, j) of x · Wx. -/
theorem xall_at (x : Vec Ideal S256x1024 .f32) (wx : Vec Ideal S1024x4096 .bf16) (p : Fin 256) (j : Fin 4096) :
    k0_pay1 (F := Ideal) x wx (ix2 p j) = ∑ k : Fin 1024, x (ix2 p k) * wx (ix2 k j) := by
  unfold k0_pay1
  rw [shapeCast_self]
  exact LibPlainMatmul.matmul_zero_apply none (truncf .bf16 x bitsLt_bf16_f32) wx p j

/-- The candidate at (p, j). -/
theorem cand_at (x h : Vec Ideal S256x1024 .f32) (wx : Vec Ideal S1024x4096 .bf16) (whh : Vec Ideal S1024x1024 .bf16)
    (bc : Vec Ideal S1x1024 .f32) (p : Fin 256) (j : Fin 1024) :
    k0_pay2 (F := Ideal) x h wx whh bc (ix2 p j)
      = (∑ k : Fin 1024, x (ix2 p k) * wx (ix2 k (colC j)) + ∑ k : Fin 1024, h (ix2 p k) * whh (ix2 k j)) + bc (ix2 (0 : Fin 1) j) := by
  unfold k0_pay2
  rw [addf_apply, addf_apply, shapeCast_self, shapeCast_self]
  congr 1
  · congr 1
    · rw [extractStridedSlice_apply (k := ix2 p (colC j)) (hk := fun a => by
        match a with
        | ⟨0, _⟩ => exact (Nat.zero_add _).symm
        | ⟨1, _⟩ => exact (Nat.zero_add _).symm)]
      exact xall_at x wx p (colC j)
    · exact LibPlainMatmul.matmul_zero_apply none (truncf .bf16 h bitsLt_bf16_f32) whh p j
  · exact LibBlockLayout.rowBroadcast_at bc broadcasts_S1x1024_S256x1024 p j

/-- The three gates at (p, g): the logistic function of the merged input-side product's gate column, plus the
    candidate's row times the merged hidden-side matrix, plus the folded bias. -/
theorem gate_at (x h : Vec Ideal S256x1024 .f32) (wx : Vec Ideal S1024x4096 .bf16) (whh : Vec Ideal S1024x1024 .bf16)
    (bc : Vec Ideal S1x1024 .f32) (wg : Vec Ideal S1024x3072 .bf16) (bg : Vec Ideal S1x3072 .f32) (p : Fin 256) (g : Fin 3072) :
    k0_pay3 (F := Ideal) x h wx whh bc wg bg (ix2 p g)
      = Ideal.logistic ((∑ k : Fin 1024, x (ix2 p k) * wx (ix2 k (colG g))
          + ∑ k : Fin 1024, k0_pay2 (F := Ideal) x h wx whh bc (ix2 p k) * wg (ix2 k g)) + bg (ix2 (0 : Fin 1) g)) := by
  unfold k0_pay3
  show Ideal.logistic _ = _
  congr 1
  rw [addf_apply, addf_apply, shapeCast_self, shapeCast_self]
  congr 1
  · congr 1
    · rw [extractStridedSlice_apply (k := ix2 p (colG g)) (hk := fun a => by
        match a with
        | ⟨0, _⟩ => exact (Nat.zero_add _).symm
        | ⟨1, _⟩ => rfl)]
      exact xall_at x wx p (colG g)
    · exact LibPlainMatmul.matmul_zero_apply none (truncf .bf16 (k0_pay2 (F := Ideal) x h wx whh bc) bitsLt_bf16_f32) wg p g
  · exact LibBlockLayout.rowBroadcast_at bg broadcasts_S1x3072_S256x3072 p g

/-- The new cell state at (p, j): forget gate times the old cell state plus input gate times tanh of the candidate. -/
theorem cell_at (x h c : Vec Ideal S256x1024 .f32) (wx : Vec Ideal S1024x4096 .bf16) (whh : Vec Ideal S1024x1024 .bf16)
    (bc : Vec Ideal S1x1024 .f32) (wg : Vec Ideal S1024x3072 .bf16) (bg : Vec Ideal S1x3072 .f32) (p : Fin 256) (j : Fin 1024) :
    k0_pay4 (F := Ideal) x h c wx whh bc wg bg (ix2 p j)
      = k0_pay3 (F := Ideal) x h wx whh bc wg bg (ix2 p (gF j)) * c (ix2 p j)
        + k0_pay3 (F := Ideal) x h wx whh bc wg bg (ix2 p (gI j)) * Ideal.tanh (k0_pay2 (F := Ideal) x h wx whh bc (ix2 p j)) := by
  unfold k0_pay4
  rw [addf_apply, mulf_apply, mulf_apply]
  congr 1
  · congr 1
    exact extractStridedSlice_apply _ _ _ _ (ix2 p (gF j)) (fun a => by
      match a with
      | ⟨0, _⟩ => exact (Nat.zero_add _).symm
      | ⟨1, _⟩ => rfl)
  · congr 1
    exact extractStridedSlice_apply _ _ _ _ (ix2 p (gI j)) (fun a => by
      match a with
      | ⟨0, _⟩ => exact (Nat.zero_add _).symm
      | ⟨1, _⟩ => exact (Nat.zero_add _).symm)

/-- The new hidden state at (p, j): tanh of the new cell state times the output gate. -/
theorem hid_at (x h c : Vec Ideal S256x1024 .f32) (wx : Vec Ideal S1024x4096 .bf16) (whh : Vec Ideal S1024x1024 .bf16)
    (bc : Vec Ideal S1x1024 .f32) (wg : Vec Ideal S1024x3072 .bf16) (bg : Vec Ideal S1x3072 .f32) (p : Fin 256) (j : Fin 1024) :
    k0_pay5 (F := Ideal) x h c wx whh bc wg bg (ix2 p j)
      = Ideal.tanh (k0_pay4 (F := Ideal) x h c wx whh bc wg bg (ix2 p j)) * k0_pay3 (F := Ideal) x h wx whh bc wg bg (ix2 p (gO j)) := by
  unfold k0_pay5
  rw [mulf_apply]
  congr 1
  exact extractStridedSlice_apply _ _ _ _ (ix2 p (gO j)) (fun a => by
    match a with
    | ⟨0, _⟩ => exact (Nat.zero_add _).symm
    | ⟨1, _⟩ => rfl)

end Cert.Lstm

end
-- ==== Proof.PrefixAt.lean ====
/-
  What the host prepares for the kernel, read at an entry.

  The merged input-side matrix is the four [1024, 1024] matrices W_hi, W_ii, W_oi, W_fi laid side by side: its first
  1024 columns are W_hi, and column 1024 + g of it is column g of the last three laid side by side, which is the
  reference's own merged gate matrix. The folded gate bias is the three sums b_ii + b_ih, b_oi + b_oh, b_fi + b_fh
  laid end to end: entry g of it is entry g of (b_ii, b_oi, b_fi) laid end to end plus entry g of (b_ih, b_oh, b_fh)
  laid end to end. A [n] vector viewed as a [1, n] row reads, at (0, j), the vector at j.
-/
import proofs.«143810_j49349174231639_2_alg».proof.Proof.LibConcatSame
import proofs.«143810_j49349174231639_2_alg».proof.Proof.PayloadAt
import Idealize.ShloMosaic.Lib.ValueIdx
import Idealize.ShloMosaic.Lib.Pipeline.Value

noncomputable section

namespace Cert.Lstm

open Idealize.ShloMosaic Idealize.ShloMosaic.ValueIdx
open Cert.KernelIdeal

variable {α : Type}

/-- The first 1024 columns of four matrices laid side by side are the first matrix. -/
theorem side4_first (a0 a1 a2 a3 : S1024x1024.Idx → α)
    (h : Shape.Concatenates (([⟨S1024x1024, a0⟩, ⟨S1024x1024, a1⟩, ⟨S1024x1024, a2⟩, ⟨S1024x1024, a3⟩] : List ((s : Shape) × (s.Idx → α))).map (·.1)) S1024x4096 1)
    (k j : Fin 1024) :
    concatenate S1024x4096 1 [⟨S1024x1024, a0⟩, ⟨S1024x1024, a1⟩, ⟨S1024x1024, a2⟩, ⟨S1024x1024, a3⟩] h (ix2 k (colC j)) = a0 (ix2 k j) :=
  LibConcatSame.concat4_apply (t := S1024x4096) (s₁ := S1024x1024) (1 : Fin 2) a0 a1 a2 a3 h rfl 1024 rfl (ix2 k (colC j)) (0 : Fin 4)
    (Nat.div_eq_of_lt j.isLt) (ix2 k j) (Nat.mod_eq_of_lt j.isLt).symm (fun b hb => by
      match b with
      | ⟨0, _⟩ => rfl
      | ⟨1, _⟩ => exact absurd rfl hb)

/-- Column 1024 + g of four matrices laid side by side is column g of the last three laid side by side. -/
theorem side4_rest (a0 a1 a2 a3 : S1024x1024.Idx → α)
    (h : Shape.Concatenates (([⟨S1024x1024, a0⟩, ⟨S1024x1024, a1⟩, ⟨S1024x1024, a2⟩, ⟨S1024x1024, a3⟩] : List ((s : Shape) × (s.Idx → α))).map (·.1)) S1024x4096 1)
    (h' : Shape.Concatenates (([⟨S1024x1024, a1⟩, ⟨S1024x1024, a2⟩, ⟨S1024x1024, a3⟩] : List ((s : Shape) × (s.Idx → α))).map (·.1)) S1024x3072 1)
    (k : Fin 1024) (g : Fin 3072) :
    concatenate S1024x4096 1 [⟨S1024x1024, a0⟩, ⟨S1024x1024, a1⟩, ⟨S1024x1024, a2⟩, ⟨S1024x1024, a3⟩] h (ix2 k (colG g))
      = concatenate S1024x3072 1 [⟨S1024x1024, a1⟩, ⟨S1024x1024, a2⟩, ⟨S1024x1024, a3⟩] h' (ix2 k g) := by
  have hg := g.isLt
  have hq : g.val / 1024 < 3 := by omega
  have hm : g.val % 1024 < 1024 := Nat.mod_lt _ (by norm_num)
  rw [LibConcatSame.concat4_apply (t := S1024x4096) (s₁ := S1024x1024) (1 : Fin 2) a0 a1 a2 a3 h rfl 1024 rfl (ix2 k (colG g)) (⟨g.val / 1024 + 1, by omega⟩ : Fin 4)
      (by show (1024 + g.val) / 1024 = g.val / 1024 + 1; omega) (ix2 k (⟨g.val % 1024, hm⟩ : Fin 1024))
      (by show g.val % 1024 = (1024 + g.val) % 1024; omega) (fun b hb => by
        match b with
        | ⟨0, _⟩ => rfl
        | ⟨1, _⟩ => exact absurd rfl hb),
    LibConcatSame.concat3_apply (t := S1024x3072) (s₁ := S1024x1024) (1 : Fin 2) a1 a2 a3 h' rfl 1024 rfl (ix2 k g) (⟨g.val / 1024, hq⟩ : Fin 3)
      rfl (ix2 k (⟨g.val % 1024, hm⟩ : Fin 1024)) rfl (fun b hb => by
        match b with
        | ⟨0, _⟩ => rfl
        | ⟨1, _⟩ => exact absurd rfl hb)]
  rfl

/-- Three sums laid end to end are, entry by entry, the sum of the two triples laid end to end. -/
theorem end3_add (a b c d e f : FVec Ideal S1024 .f32)
    (h : Shape.Concatenates (([⟨S1024, addf a b⟩, ⟨S1024, addf c d⟩, ⟨S1024, addf e f⟩] : List ((s : Shape) × (s.Idx → Ideal .f32))).map (·.1)) S3072 0)
    (h1 : Shape.Concatenates (([⟨S1024, a⟩, ⟨S1024, c⟩, ⟨S1024, e⟩] : List ((s : Shape) × (s.Idx → Ideal .f32))).map (·.1)) S3072 0)
    (h2 : Shape.Concatenates (([⟨S1024, b⟩, ⟨S1024, d⟩, ⟨S1024, f⟩] : List ((s : Shape) × (s.Idx → Ideal .f32))).map (·.1)) S3072 0)
    (g : Fin 3072) :
    concatenate S3072 0 [⟨S1024, addf a b⟩, ⟨S1024, addf c d⟩, ⟨S1024, addf e f⟩] h (ix1 g)
      = concatenate S3072 0 [⟨S1024, a⟩, ⟨S1024, c⟩, ⟨S1024, e⟩] h1 (ix1 g)
        + concatenate S3072 0 [⟨S1024, b⟩, ⟨S1024, d⟩, ⟨S1024, f⟩] h2 (ix1 g) := by
  have hg := g.isLt
  have hm : g.val % 1024 < 1024 := Nat.mod_lt _ (by norm_num)
  obtain ⟨q, hq⟩ : ∃ q : Fin 3, g.val / 1024 = q.val := ⟨⟨g.val / 1024, by omega⟩, rfl⟩
  have side : ∀ b : Fin S1024.rank, b.cast (rfl : S1024.rank = S3072.rank) ≠ (0 : Fin 1) →
      ((ix1 (⟨g.val % 1024, hm⟩ : Fin 1024) : S1024.Idx) b).val = ((ix1 g : S3072.Idx) (b.cast rfl)).val := fun b hb => by
    match b with
    | ⟨0, _⟩ => exact absurd rfl hb
  rw [LibConcatSame.concat3_apply (t := S3072) (s₁ := S1024) (0 : Fin 1) (addf a b) (addf c d) (addf e f) h rfl 1024 rfl (ix1 g) q hq (ix1 (⟨g.val % 1024, hm⟩ : Fin 1024)) rfl side,
    LibConcatSame.concat3_apply (t := S3072) (s₁ := S1024) (0 : Fin 1) a c e h1 rfl 1024 rfl (ix1 g) q hq (ix1 (⟨g.val % 1024, hm⟩ : Fin 1024)) rfl side,
    LibConcatSame.concat3_apply (t := S3072) (s₁ := S1024) (0 : Fin 1) b d f h2 rfl 1024 rfl (ix1 g) q hq (ix1 (⟨g.val % 1024, hm⟩ : Fin 1024)) rfl side]
  fin_cases q <;> rfl

/-- A vector viewed as a one-row matrix reads, at (0, j), the vector at j. -/
theorem asRow_at {n : ℕ} (v : (⟨1, ![n]⟩ : Shape).Idx → α) (h : (⟨1, ![n]⟩ : Shape).ShapeCasts ⟨2, ![1, n]⟩) (j : Fin n) :
    shapeCast ⟨2, ![1, n]⟩ v h (ix2 (0 : Fin 1) j) = v (ix1 j) := by
  refine shapeCast_apply v h (ix2 (0 : Fin 1) j) (ix1 j) ?_
  rw [Shape.rowMajor_val_one, Shape.rowMajor_val_two]
  show j.val = (0 : ℕ) * n + j.val
  rw [Nat.zero_mul, Nat.zero_add]

end Cert.Lstm

end
-- ==== Proof.RefAt.lean ====
/-
  The reference LSTM cell read at an entry, on the extended reals, one stage at a time:
    cand (r, j) = ((Σₖ x (r, k) · W_hi (k, j) + b_hi j) + Σₖ h (r, k) · W_hh (k, j)) + b_hh j
    pre  (r, g) = ((Σₖ x (r, k) · Wx (k, g) + bx g) + Σₖ cand (r, k) · Wh (k, g)) + bh g
    gate (r, g) = 1 / (1 + exp (− pre (r, g))), which is the logistic function of pre (r, g)
    cell (r, j) = gate (r, 2048 + j) · c (r, j) + gate (r, j) · tanh (cand (r, j))
    hid  (r, j) = tanh (cell (r, j)) · gate (r, 1024 + j)
  where Wx, bx, Wh, bh are the reference's own concatenations of the three gates' matrices and biases.
-/
import proofs.«143810_j49349174231639_2_alg».proof.Proof.Gen.ReferenceIdeal.Read
import Idealize.ShloMosaic.Lib.ValueIdx
import Idealize.ShloMosaic.PureOps.Ideal.Laws

noncomputable section

open scoped BigOperators

namespace Cert.LstmRef

open Idealize.ShloMosaic Idealize.ShloMosaic.ValueIdx
open Cert.ReferenceIdeal Cert.ReferenceIdeal.Read

/-- The float word of one is the real number one. -/
theorem one_word : Ideal.ofBits .f32 0x3F800000#32 = 1 := by
  simp [Ideal.ofBits, Ideal.ieee, -EReal.coe_mul]; norm_num

variable (x0 x1 x2 : (⟨S4096x1024, .f32⟩ : BufTy).Contents (Elt Ideal))
  (x3 x5 x7 x9 x11 x13 x15 x17 : (⟨S1024x1024, .f32⟩ : BufTy).Contents (Elt Ideal))
  (x4 x6 x8 x10 x12 x14 x16 x18 : (⟨S1024, .f32⟩ : BufTy).Contents (Elt Ideal))

/-- The candidate at (r, j). -/
theorem cand_at (r : Fin 4096) (j : Fin 1024) :
    val_main_v8 (F := Ideal) x0 x1 x3 x4 x5 x6 (ix2 r j)
      = ((∑ k : Fin 1024, x0 (ix2 r k) * x3 (ix2 k j) + x4 (ix1 j)) + ∑ k : Fin 1024, x1 (ix2 r k) * x5 (ix2 k j)) + x6 (ix1 j) := by
  have e0 : ∀ k, lidx_main_v0 (ix2 r j) k = ix2 r k := fun k => funext fun a => Fin.ext (by
    match a with
    | ⟨0, _⟩ => rfl
    | ⟨1, _⟩ => rfl)
  have e1 : ∀ k, ridx_main_v0 (ix2 r j) k = ix2 k j := fun k => funext fun a => Fin.ext (by
    match a with
    | ⟨0, _⟩ => rfl
    | ⟨1, _⟩ => rfl)
  have e2 : ∀ k, lidx_main_v4 (ix2 r j) k = ix2 r k := fun k => funext fun a => Fin.ext (by
    match a with
    | ⟨0, _⟩ => rfl
    | ⟨1, _⟩ => rfl)
  have e3 : ∀ k, ridx_main_v4 (ix2 r j) k = ix2 k j := fun k => funext fun a => Fin.ext (by
    match a with
    | ⟨0, _⟩ => rfl
    | ⟨1, _⟩ => rfl)
  have e4 : idx_main_v1 (idx_main_v2 (ix2 r j)) = ix1 j := funext fun a => Fin.ext (by
    match a with
    | ⟨0, _⟩ => rfl)
  have e5 : idx_main_v6 (idx_main_v7 (ix2 r j)) = ix1 j := funext fun a => Fin.ext (by
    match a with
    | ⟨0, _⟩ => rfl)
  rw [val_main_v8_apply, val_main_v5_apply, val_main_v3_apply, val_main_v0_apply, val_main_v2_apply, val_main_v1_apply,
    val_main_v4_apply, val_main_v7_apply, val_main_v6_apply]
  simp only [e0, e1, e2, e3, e4, e5, Ideal.addf_def]

/-- The gates' argument at (r, g). -/
theorem pre_at (r : Fin 4096) (g : Fin 3072) :
    val_main_v21 (F := Ideal) x0 x1 x3 x4 x5 x6 x7 x8 x9 x10 x11 x12 x13 x14 x15 x16 x17 x18 (ix2 r g)
      = ((∑ k : Fin 1024, x0 (ix2 r k) * val_main_v9 (F := Ideal) x7 x11 x15 (ix2 k g) + val_main_v10 (F := Ideal) x8 x12 x16 (ix1 g))
          + ∑ k : Fin 1024, val_main_v8 (F := Ideal) x0 x1 x3 x4 x5 x6 (ix2 r k) * val_main_v11 (F := Ideal) x9 x13 x17 (ix2 k g))
        + val_main_v12 (F := Ideal) x10 x14 x18 (ix1 g) := by
  have e0 : ∀ k, lidx_main_v13 (ix2 r g) k = ix2 r k := fun k => funext fun a => Fin.ext (by
    match a with
    | ⟨0, _⟩ => rfl
    | ⟨1, _⟩ => rfl)
  have e1 : ∀ k, ridx_main_v13 (ix2 r g) k = ix2 k g := fun k => funext fun a => Fin.ext (by
    match a with
    | ⟨0, _⟩ => rfl
    | ⟨1, _⟩ => rfl)
  have e2 : ∀ k, lidx_main_v17 (ix2 r g) k = ix2 r k := fun k => funext fun a => Fin.ext (by
    match a with
    | ⟨0, _⟩ => rfl
    | ⟨1, _⟩ => rfl)
  have e3 : ∀ k, ridx_main_v17 (ix2 r g) k = ix2 k g := fun k => funext fun a => Fin.ext (by
    match a with
    | ⟨0, _⟩ => rfl
    | ⟨1, _⟩ => rfl)
  have e4 : idx_main_v14 (idx_main_v15 (ix2 r g)) = ix1 g := funext fun a => Fin.ext (by
    match a with
    | ⟨0, _⟩ => rfl)
  have e5 : idx_main_v19 (idx_main_v20 (ix2 r g)) = ix1 g := funext fun a => Fin.ext (by
    match a with
    | ⟨0, _⟩ => rfl)
  rw [val_main_v21_apply, val_main_v18_apply, val_main_v16_apply, val_main_v13_apply, val_main_v15_apply, val_main_v14_apply,
    val_main_v17_apply, val_main_v20_apply, val_main_v19_apply]
  simp only [e0, e1, e2, e3, e4, e5, Ideal.addf_def]

/-- A gate at an entry: the reference spells the logistic function out as 1 / (1 + exp (−·)). -/
theorem gate_at (i : S4096x3072.Idx) :
    val_main_v27 (F := Ideal) x0 x1 x3 x4 x5 x6 x7 x8 x9 x10 x11 x12 x13 x14 x15 x16 x17 x18 i
      = Ideal.logistic (val_main_v21 (F := Ideal) x0 x1 x3 x4 x5 x6 x7 x8 x9 x10 x11 x12 x13 x14 x15 x16 x17 x18 i) := by
  rw [val_main_v27_apply, val_main_v26_apply, val_main_cst_0_apply, val_main_v25_apply, val_main_v24_apply, val_main_cst_apply,
    val_main_v23_apply, val_main_v22_apply]
  show Ideal.div (Ideal.ofBits .f32 0x3F800000#32) (Ideal.ofBits .f32 0x3F800000#32 + Ideal.exp (-_)) = _
  rw [one_word]
  rfl

/-- The new cell state at (r, j). -/
theorem cell_at (r : Fin 4096) (j : Fin 1024) :
    val_main_v34 (F := Ideal) x0 x1 x2 x3 x4 x5 x6 x7 x8 x9 x10 x11 x12 x13 x14 x15 x16 x17 x18 (ix2 r j)
      = val_main_v27 (F := Ideal) x0 x1 x3 x4 x5 x6 x7 x8 x9 x10 x11 x12 x13 x14 x15 x16 x17 x18 (ix2 r (⟨2048 + j.val, by have := j.isLt; omega⟩ : Fin 3072)) * x2 (ix2 r j)
        + val_main_v27 (F := Ideal) x0 x1 x3 x4 x5 x6 x7 x8 x9 x10 x11 x12 x13 x14 x15 x16 x17 x18 (ix2 r (⟨j.val, by have := j.isLt; omega⟩ : Fin 3072))
          * Ideal.tanh (val_main_v8 (F := Ideal) x0 x1 x3 x4 x5 x6 (ix2 r j)) := by
  have e0 : idx_main_v30 (ix2 r j) = ix2 r (⟨2048 + j.val, by have := j.isLt; omega⟩ : Fin 3072) := funext fun a => Fin.ext (by
    match a with
    | ⟨0, _⟩ => rfl
    | ⟨1, _⟩ => rfl)
  have e1 : idx_main_v28 (ix2 r j) = ix2 r (⟨j.val, by have := j.isLt; omega⟩ : Fin 3072) := funext fun a => Fin.ext (by
    match a with
    | ⟨0, _⟩ => rfl
    | ⟨1, _⟩ => rfl)
  rw [val_main_v34_apply, val_main_v31_apply, val_main_v30_apply, val_main_v33_apply, val_main_v28_apply, val_main_v32_apply, e0, e1]
  rfl

/-- The new hidden state at (r, j). -/
theorem hid_at (r : Fin 4096) (j : Fin 1024) :
    val_main_v36 (F := Ideal) x0 x1 x2 x3 x4 x5 x6 x7 x8 x9 x10 x11 x12 x13 x14 x15 x16 x17 x18 (ix2 r j)
      = Ideal.tanh (val_main_v34 (F := Ideal) x0 x1 x2 x3 x4 x5 x6 x7 x8 x9 x10 x11 x12 x13 x14 x15 x16 x17 x18 (ix2 r j))
        * val_main_v27 (F := Ideal) x0 x1 x3 x4 x5 x6 x7 x8 x9 x10 x11 x12 x13 x14 x15 x16 x17 x18 (ix2 r (⟨1024 + j.val, by have := j.isLt; omega⟩ : Fin 3072)) := by
  have e0 : idx_main_v29 (ix2 r j) = ix2 r (⟨1024 + j.val, by have := j.isLt; omega⟩ : Fin 3072) := funext fun a => Fin.ext (by
    match a with
    | ⟨0, _⟩ => rfl
    | ⟨1, _⟩ => rfl)
  rw [val_main_v36_apply, val_main_v35_apply, val_main_v29_apply, e0]
  rfl

end Cert.LstmRef

end
-- ==== Proof.Bridge.lean ====
/-
  One batch row of the kernel's block against the same row of the reference, on the extended reals.

  Suppose row `p` of the kernel's blocks of x, h, c is row `r` of the reference's arrays, the kernel's merged
  input-side matrix has the candidate's matrix W_hi in its first 1024 columns and the reference's merged gate matrix
  Wx in the other 3072, the kernel's other two matrices are the reference's W_hh and merged Wh, and the kernel's two
  folded bias rows are b_hi + b_hh and bx + bh. Then candidate, gates, new cell state and new hidden state agree entry
  by entry. The only algebra is a regrouping of one sum of four terms,
    (A + B) + (u + v) = ((A + u) + B) + v,
  which holds on the extended reals without any finiteness: addition there is commutative and associative.
-/
import proofs.«143810_j49349174231639_2_alg».proof.Proof.PayloadAt
import proofs.«143810_j49349174231639_2_alg».proof.Proof.RefAt

noncomputable section

open scoped BigOperators

namespace Cert.LstmBridge

open Idealize.ShloMosaic Idealize.ShloMosaic.ValueIdx
open Cert.Lstm (colC colG gI gO gF)
open Cert.ReferenceIdeal.Read

/-- Folding two biases into one row before adding, against adding them one at a time. -/
theorem regroup (A B u v : EReal) : (A + B) + (u + v) = ((A + u) + B) + v := by
  rw [add_add_add_comm, ← add_assoc]

/-- What ties a row of the kernel's blocks and its resident operands to the reference's arrays. -/
structure RowAgrees
    (x h c : Vec Ideal Cert.KernelIdeal.S256x1024 .f32) (wx : Vec Ideal Cert.KernelIdeal.S1024x4096 .bf16) (whh : Vec Ideal Cert.KernelIdeal.S1024x1024 .bf16)
    (bc : Vec Ideal Cert.KernelIdeal.S1x1024 .f32) (wg : Vec Ideal Cert.KernelIdeal.S1024x3072 .bf16) (bg : Vec Ideal Cert.KernelIdeal.S1x3072 .f32)
    (x0 x1 x2 : (⟨Cert.ReferenceIdeal.S4096x1024, .f32⟩ : BufTy).Contents (Elt Ideal))
    (x3 x5 x7 x9 x11 x13 x15 x17 : (⟨Cert.ReferenceIdeal.S1024x1024, .f32⟩ : BufTy).Contents (Elt Ideal))
    (x4 x6 x8 x10 x12 x14 x16 x18 : (⟨Cert.ReferenceIdeal.S1024, .f32⟩ : BufTy).Contents (Elt Ideal))
    (p : Fin 256) (r : Fin 4096) : Prop where
  hx : ∀ k : Fin 1024, x (ix2 p k) = x0 (ix2 r k)
  hh : ∀ k : Fin 1024, h (ix2 p k) = x1 (ix2 r k)
  hc : ∀ j : Fin 1024, c (ix2 p j) = x2 (ix2 r j)
  hwxC : ∀ (k j : Fin 1024), wx (ix2 k (colC j)) = x3 (ix2 k j)
  hwxG : ∀ (k : Fin 1024) (g : Fin 3072), wx (ix2 k (colG g)) = val_main_v9 (F := Ideal) x7 x11 x15 (ix2 k g)
  hwhh : ∀ (k j : Fin 1024), whh (ix2 k j) = x5 (ix2 k j)
  hbc : ∀ j : Fin 1024, bc (ix2 (0 : Fin 1) j) = x4 (ix1 j) + x6 (ix1 j)
  hwg : ∀ (k : Fin 1024) (g : Fin 3072), wg (ix2 k g) = val_main_v11 (F := Ideal) x9 x13 x17 (ix2 k g)
  hbg : ∀ g : Fin 3072, bg (ix2 (0 : Fin 1) g) = val_main_v10 (F := Ideal) x8 x12 x16 (ix1 g) + val_main_v12 (F := Ideal) x10 x14 x18 (ix1 g)

variable {x h c : Vec Ideal Cert.KernelIdeal.S256x1024 .f32} {wx : Vec Ideal Cert.KernelIdeal.S1024x4096 .bf16} {whh : Vec Ideal Cert.KernelIdeal.S1024x1024 .bf16}
    {bc : Vec Ideal Cert.KernelIdeal.S1x1024 .f32} {wg : Vec Ideal Cert.KernelIdeal.S1024x3072 .bf16} {bg : Vec Ideal Cert.KernelIdeal.S1x3072 .f32}
    {x0 x1 x2 : (⟨Cert.ReferenceIdeal.S4096x1024, .f32⟩ : BufTy).Contents (Elt Ideal)}
    {x3 x5 x7 x9 x11 x13 x15 x17 : (⟨Cert.ReferenceIdeal.S1024x1024, .f32⟩ : BufTy).Contents (Elt Ideal)}
    {x4 x6 x8 x10 x12 x14 x16 x18 : (⟨Cert.ReferenceIdeal.S1024, .f32⟩ : BufTy).Contents (Elt Ideal)}
    {p : Fin 256} {r : Fin 4096}

/-- The candidates agree. -/
theorem cand_eq (H : RowAgrees x h c wx whh bc wg bg x0 x1 x2 x3 x5 x7 x9 x11 x13 x15 x17 x4 x6 x8 x10 x12 x14 x16 x18 p r) (j : Fin 1024) :
    Cert.KernelIdeal.Gen.k0_pay2 (F := Ideal) x h wx whh bc (ix2 p j) = val_main_v8 (F := Ideal) x0 x1 x3 x4 x5 x6 (ix2 r j) := by
  rw [Cert.Lstm.cand_at, Cert.LstmRef.cand_at]
  simp only [H.hx, H.hh, H.hwxC, H.hwhh, H.hbc]
  exact regroup _ _ _ _

/-- The gates agree. -/
theorem gate_eq (H : RowAgrees x h c wx whh bc wg bg x0 x1 x2 x3 x5 x7 x9 x11 x13 x15 x17 x4 x6 x8 x10 x12 x14 x16 x18 p r) (g : Fin 3072) :
    Cert.KernelIdeal.Gen.k0_pay3 (F := Ideal) x h wx whh bc wg bg (ix2 p g) = val_main_v27 (F := Ideal) x0 x1 x3 x4 x5 x6 x7 x8 x9 x10 x11 x12 x13 x14 x15 x16 x17 x18 (ix2 r g) := by
  rw [Cert.Lstm.gate_at, Cert.LstmRef.gate_at, Cert.LstmRef.pre_at]
  simp only [H.hx, H.hwxG, cand_eq H, H.hwg, H.hbg]
  exact congrArg Ideal.logistic (regroup _ _ _ _)

/-- The new cell states agree. -/
theorem cell_eq (H : RowAgrees x h c wx whh bc wg bg x0 x1 x2 x3 x5 x7 x9 x11 x13 x15 x17 x4 x6 x8 x10 x12 x14 x16 x18 p r) (j : Fin 1024) :
    Cert.KernelIdeal.Gen.k0_pay4 (F := Ideal) x h c wx whh bc wg bg (ix2 p j) = val_main_v34 (F := Ideal) x0 x1 x2 x3 x4 x5 x6 x7 x8 x9 x10 x11 x12 x13 x14 x15 x16 x17 x18 (ix2 r j) := by
  rw [Cert.Lstm.cell_at, Cert.LstmRef.cell_at, gate_eq H, gate_eq H, cand_eq H, H.hc]

/-- The new hidden states agree. -/
theorem hid_eq (H : RowAgrees x h c wx whh bc wg bg x0 x1 x2 x3 x5 x7 x9 x11 x13 x15 x17 x4 x6 x8 x10 x12 x14 x16 x18 p r) (j : Fin 1024) :
    Cert.KernelIdeal.Gen.k0_pay5 (F := Ideal) x h c wx whh bc wg bg (ix2 p j) = val_main_v36 (F := Ideal) x0 x1 x2 x3 x4 x5 x6 x7 x8 x9 x10 x11 x12 x13 x14 x15 x16 x17 x18 (ix2 r j) := by
  rw [Cert.Lstm.hid_at, Cert.LstmRef.hid_at, cell_eq H, gate_eq H]

end Cert.LstmBridge

end
-- ==== Proof.KernelValue.lean ====
/-
  What the kernel program leaves in its two result arrays, as functions of its nineteen argument arrays.

  The region runs sixteen points; point `t` works on batch rows 256 t … 256 t + 255. Its three row-blocked windows hold
  those rows of the inputs, the old hidden state and the old cell state; its five resident windows hold, whole, what the
  host prepared before the region: the merged input-side matrix, the candidate's hidden-side matrix, the merged
  hidden-side gate matrix and the two folded bias rows. So row `p` of the point's blocks agrees with row 256 t + p of the
  reference's arrays in the sense of `RowAgrees`, and what the point writes back is block `t` of the reference's new
  hidden state (first result) and new cell state (second result). The sixteen blocks tile each result array, so after the
  run each result array is the reference's, entry by entry.
-/
import proofs.«143810_j49349174231639_2_alg».proof.Proof.FrameIdeal
import proofs.«143810_j49349174231639_2_alg».proof.Proof.Cover
import proofs.«143810_j49349174231639_2_alg».proof.Proof.PrefixValue
import proofs.«143810_j49349174231639_2_alg».proof.Proof.PrefixAt
import proofs.«143810_j49349174231639_2_alg».proof.Proof.Bridge
import Idealize.ShloMosaic.Lib.Pipeline.Value
import Idealize.ShloMosaic.Lib.StableHlo.Run

set_option maxRecDepth 16384

noncomputable section

namespace Cert.LstmValue

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.KernelIdeal.Frame
open Cert.Lstm (colC colG side4_first side4_rest end3_add asRow_at)
open Cert.ReferenceIdeal.Read (val_main_v34 val_main_v36)

variable (m : (ℓ : Loc nD τ sig) → Buf (Elt Ideal) ℓ) (ρ : Dev nD → PrngReg)

/-! ## The blocks at a point -/

/-- Row `p` of point `t`'s block of the inputs is row `256 t + p` of the array. -/
theorem rows0 (c : Dev nD) (t : Fin cfg0.N) (p : Fin 256) (k : Fin 1024) (hr : 256 * t.val + p.val < 4096) :
    iblk m c 0 t (ix2 p k) = m ((c : Thread nD τ).loc main_arg0) (ix2 (⟨256 * t.val + p.val, hr⟩ : Fin 4096) k) := by
  show V m c main_arg0 (((cfg0.win 0).blk t).view.emb (ix2 p k)) = _
  rw [V_main_arg0]
  refine congrArg (m ((c : Thread nD τ).loc main_arg0)) (funext fun a => Fin.ext ?_)
  have e := idx_facts t
  match a with
  | ⟨0, _⟩ => show win0_0.index t (0 : Fin 2) * 256 + 1 * p.val = 256 * t.val + p.val; omega
  | ⟨1, _⟩ => show win0_0.index t (1 : Fin 2) * 1024 + 1 * k.val = k.val; omega

/-- Row `p` of point `t`'s block of the old hidden state is row `256 t + p` of the array. -/
theorem rows1 (c : Dev nD) (t : Fin cfg0.N) (p : Fin 256) (k : Fin 1024) (hr : 256 * t.val + p.val < 4096) :
    iblk m c 1 t (ix2 p k) = m ((c : Thread nD τ).loc main_arg1) (ix2 (⟨256 * t.val + p.val, hr⟩ : Fin 4096) k) := by
  show V m c main_arg1 (((cfg0.win 1).blk t).view.emb (ix2 p k)) = _
  rw [V_main_arg1]
  refine congrArg (m ((c : Thread nD τ).loc main_arg1)) (funext fun a => Fin.ext ?_)
  have e := idx_facts t
  match a with
  | ⟨0, _⟩ => show win0_1.index t (0 : Fin 2) * 256 + 1 * p.val = 256 * t.val + p.val; omega
  | ⟨1, _⟩ => show win0_1.index t (1 : Fin 2) * 1024 + 1 * k.val = k.val; omega

/-- Row `p` of point `t`'s block of the old cell state is row `256 t + p` of the array. -/
theorem rows2 (c : Dev nD) (t : Fin cfg0.N) (p : Fin 256) (k : Fin 1024) (hr : 256 * t.val + p.val < 4096) :
    iblk m c 2 t (ix2 p k) = m ((c : Thread nD τ).loc main_arg2) (ix2 (⟨256 * t.val + p.val, hr⟩ : Fin 4096) k) := by
  show V m c main_arg2 (((cfg0.win 2).blk t).view.emb (ix2 p k)) = _
  rw [V_main_arg2]
  refine congrArg (m ((c : Thread nD τ).loc main_arg2)) (funext fun a => Fin.ext ?_)
  have e := idx_facts t
  match a with
  | ⟨0, _⟩ => show win0_2.index t (0 : Fin 2) * 256 + 1 * p.val = 256 * t.val + p.val; omega
  | ⟨1, _⟩ => show win0_2.index t (1 : Fin 2) * 1024 + 1 * k.val = k.val; omega

/-- Window 3 stages the merged input-side matrix whole, at every point. -/
theorem blk3 (c : Dev nD) (t : Fin cfg0.N) (y : S1024x4096.Idx) : iblk m c 3 t y = V m c main_v1 y := by
  show V m c main_v1 (((cfg0.win 3).blk t).view.emb y) = _
  refine congrArg (V m c main_v1) (funext fun a => Fin.ext ?_)
  have e := idx_facts t
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- Window 4 stages the candidate's hidden-side matrix whole, at every point. -/
theorem blk4 (c : Dev nD) (t : Fin cfg0.N) (y : S1024x1024.Idx) : iblk m c 4 t y = V m c main_v4 y := by
  show V m c main_v4 (((cfg0.win 4).blk t).view.emb y) = _
  refine congrArg (V m c main_v4) (funext fun a => Fin.ext ?_)
  have e := idx_facts t
  match a with
  | ⟨0, _⟩ => show win0_4.index t (0 : Fin 2) * 1024 + 1 * (y 0).val = (y 0).val; omega
  | ⟨1, _⟩ => show win0_4.index t (1 : Fin 2) * 1024 + 1 * (y 1).val = (y 1).val; omega

/-- Window 5 stages the merged hidden-side gate matrix whole, at every point. -/
theorem blk5 (c : Dev nD) (t : Fin cfg0.N) (y : S1024x3072.Idx) : iblk m c 5 t y = V m c main_v3 y := by
  show V m c main_v3 (((cfg0.win 5).blk t).view.emb y) = _
  refine congrArg (V m c main_v3) (funext fun a => Fin.ext ?_)
  have e := idx_facts t
  match a with
  | ⟨0, _⟩ => show win0_5.index t (0 : Fin 2) * 1024 + 1 * (y 0).val = (y 0).val; omega
  | ⟨1, _⟩ => show win0_5.index t (1 : Fin 2) * 3072 + 1 * (y 1).val = (y 1).val; omega

/-- Window 6 stages the candidate's bias row whole, at every point. -/
theorem blk6 (c : Dev nD) (t : Fin cfg0.N) (y : S1x1024.Idx) : iblk m c 6 t y = V m c main_v6 y := by
  show V m c main_v6 (((cfg0.win 6).blk t).view.emb y) = _
  refine congrArg (V m c main_v6) (funext fun a => Fin.ext ?_)
  have e := idx_facts t
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- Window 7 stages the gates' bias row whole, at every point. -/
theorem blk7 (c : Dev nD) (t : Fin cfg0.N) (y : S1x3072.Idx) : iblk m c 7 t y = V m c main_v11 y := by
  show V m c main_v11 (((cfg0.win 7).blk t).view.emb y) = _
  refine congrArg (V m c main_v11) (funext fun a => Fin.ext ?_)
  have e := idx_facts t
  match a with
  | ⟨0, _⟩ => show win0_7.index t (0 : Fin 2) * 1 + 1 * (y 0).val = (y 0).val; omega
  | ⟨1, _⟩ => show win0_7.index t (1 : Fin 2) * 3072 + 1 * (y 1).val = (y 1).val; omega

/-- Row `p` of point `t`'s blocks and the resident operands agree with row `256 t + p` of the reference's arrays. -/
theorem rowAgrees (c : Dev nD) (t : Fin cfg0.N) (p : Fin 256) (hr : 256 * t.val + p.val < 4096) :
    Cert.LstmBridge.RowAgrees (iblk m c 0 t) (iblk m c 1 t) (iblk m c 2 t) (iblk m c 3 t) (iblk m c 4 t) (iblk m c 6 t) (iblk m c 5 t) (iblk m c 7 t)
      (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) (m ((c : Thread nD τ).loc main_arg11)) (m ((c : Thread nD τ).loc main_arg13)) (m ((c : Thread nD τ).loc main_arg15)) (m ((c : Thread nD τ).loc main_arg17)) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14)) (m ((c : Thread nD τ).loc main_arg16)) (m ((c : Thread nD τ).loc main_arg18)) p (⟨256 * t.val + p.val, hr⟩ : Fin 4096) where
  hx k := rows0 m c t p k hr
  hh k := rows1 m c t p k hr
  hc j := rows2 m c t p j hr
  hwxC k j := by
    rw [blk3, V_wx, truncf_apply]
    exact side4_first _ _ _ _ _ k j
  hwxG k g := by
    rw [blk3, V_wx, truncf_apply]
    exact side4_rest _ _ _ _ _ concatenates_S1024x1024_S1024x1024_S1024x1024_S1024x3072_d1 k g
  hwhh k j := by
    rw [blk4, V_whh]
    rfl
  hbc j := by
    rw [blk6, V_bc, asRow_at]
    rfl
  hwg k g := by
    rw [blk5, V_wg]
    rfl
  hbg g := by
    rw [blk7, V_bg, asRow_at]
    exact end3_add _ _ _ _ _ _ _ concatenates_S1024_S1024_S1024_S3072_d0 concatenates_S1024_S1024_S1024_S3072_d0 g

/-! ## The two result arrays -/

/-- The new hidden state as the reference computes it from the argument arrays. -/
def G8 (c : Dev nD) : Buf (Elt Ideal) ((c : Thread nD τ).loc main_v12_0) :=
  val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- The new cell state as the reference computes it from the argument arrays. -/
def G9 (c : Dev nD) : Buf (Elt Ideal) ((c : Thread nD τ).loc main_v12_1) :=
  val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- Every access of the body starts at the origin of its buffer. -/
theorem hz : (![0, 0] : Fin 2 → Nat) = fun _ => 0 := funext fun a => by fin_cases a <;> rfl

/-- What point `t` writes back to the new hidden state array is block `t` of the reference's new hidden state, computed from the
    argument arrays: row `p` of the block is row `256 t + p` of every operand. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold out0_8
  rw [View.canon_unit_zero hz]
  simp only [View.ld_unit_zero (S := S256x1024) hz, View.ld_unit_zero (S := S1024x4096) hz, View.ld_unit_zero (S := S1024x1024) hz,
    View.ld_unit_zero (S := S1x1024) hz, View.ld_unit_zero (S := S1024x3072) hz, View.ld_unit_zero (S := S1x3072) hz]
  funext y
  obtain ⟨p, q, rfl⟩ : ∃ (p : Fin 256) (q : Fin 1024), y = ix2 p q := ⟨y 0, y 1, eq_ix2 y⟩
  have ht : t.val < 16 := lt_of_lt_of_eq t.isLt N_0
  have hr : 256 * t.val + p.val < 4096 := by have := p.isLt; omega
  show k0_pay5 (F := Ideal) (iblk m c 0 t) (iblk m c 1 t) (iblk m c 2 t) (iblk m c 3 t) (iblk m c 4 t) (iblk m c 6 t) (iblk m c 5 t) (iblk m c 7 t) (ix2 p q)
    = G8 m c (((cfg0.win 8).blk t).view.emb (ix2 p q))
  have hemb : ((cfg0.win 8).blk t).view.emb (ix2 p q) = ix2 (⟨256 * t.val + p.val, hr⟩ : Fin 4096) q := funext fun a => Fin.ext (by
    have e := idx_facts t
    match a with
    | ⟨0, _⟩ => show win0_8.index t (0 : Fin 2) * 256 + 1 * p.val = 256 * t.val + p.val; omega
    | ⟨1, _⟩ => show win0_8.index t (1 : Fin 2) * 1024 + 1 * q.val = q.val; omega)
  rw [hemb]
  exact Cert.LstmBridge.hid_eq (rowAgrees m c t p hr) q

/-- What point `t` writes back to the new cell state array is block `t` of the reference's new cell state, computed from the
    argument arrays: row `p` of the block is row `256 t + p` of every operand. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz]
  simp only [View.ld_unit_zero (S := S256x1024) hz, View.ld_unit_zero (S := S1024x4096) hz, View.ld_unit_zero (S := S1024x1024) hz,
    View.ld_unit_zero (S := S1x1024) hz, View.ld_unit_zero (S := S1024x3072) hz, View.ld_unit_zero (S := S1x3072) hz]
  funext y
  obtain ⟨p, q, rfl⟩ : ∃ (p : Fin 256) (q : Fin 1024), y = ix2 p q := ⟨y 0, y 1, eq_ix2 y⟩
  have ht : t.val < 16 := lt_of_lt_of_eq t.isLt N_0
  have hr : 256 * t.val + p.val < 4096 := by have := p.isLt; omega
  show k0_pay4 (F := Ideal) (iblk m c 0 t) (iblk m c 1 t) (iblk m c 2 t) (iblk m c 3 t) (iblk m c 4 t) (iblk m c 6 t) (iblk m c 5 t) (iblk m c 7 t) (ix2 p q)
    = G9 m c (((cfg0.win 9).blk t).view.emb (ix2 p q))
  have hemb : ((cfg0.win 9).blk t).view.emb (ix2 p q) = ix2 (⟨256 * t.val + p.val, hr⟩ : Fin 4096) q := funext fun a => Fin.ext (by
    have e := idx_facts t
    match a with
    | ⟨0, _⟩ => show win0_9.index t (0 : Fin 2) * 256 + 1 * p.val = 256 * t.val + p.val; omega
    | ⟨1, _⟩ => show win0_9.index t (1 : Fin 2) * 1024 + 1 * q.val = q.val; omega)
  rw [hemb]
  exact Cert.LstmBridge.cell_eq (rowAgrees m c t p hr) q

/-- After the run the first result array is the reference's new hidden state: the sixteen blocks tile it. -/
theorem final8 (c : Dev nD) : (dats m 0 c).arrAt 8 cfg0.N = G8 m c :=
  (dats m 0 c).arrAt_eq_of_cover 8 (G8 m c) (fun t _ => flushed8_eq m c t) cover8

/-- After the run the second result array is the reference's new cell state. -/
theorem final9 (c : Dev nD) : (dats m 0 c).arrAt 9 cfg0.N = G9 m c :=
  (dats m 0 c).arrAt_eq_of_cover 9 (G9 m c) (fun t _ => flushed9_eq m c t) cover9

/-! ## The run, read -/

/-- Every weakly fair execution of the kernel program terminates with its two results at the reference's new hidden
    state and new cell state of the argument arrays, and the argument arrays as launched. -/
theorem run : θ_run defs (onTc (τ := τ) (main (F := Ideal))) ⟨m, fun _ => 0, ρ⟩ fun r => ∀ c : Dev nD,
      r.2.mem ((c.tc : Thread nD τ).loc main_v12_0) = G8 m c
      ∧ r.2.mem ((c.tc : Thread nD τ).loc main_v12_1) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.LstmValue

end
-- ==== Proof.lean ====
/- An LSTM cell written as one pipelined TPU kernel, against its plain reference, on the extended reals.

   Both programs compute, from inputs x, old hidden state h, old cell state c and eight weight matrices with their biases,
     cand = x · W_hi + b_hi + h · W_hh + b_hh
     (i, o, f) = logistic (x · [W_ii | W_oi | W_fi] + [b_ii, b_oi, b_fi] + cand · [W_ih | W_oh | W_fh] + [b_ih, b_oh, b_fh])
     c' = f · c + i · tanh cand          h' = tanh c' · o
   and return (h', c'). The kernel differs in arrangement only: it multiplies x by the four input-side matrices laid side by
   side in one product and slices the result, folds each pair of biases into one row on the host before the region, works on
   256 batch rows per grid point, and narrows its matrix operands to bf16, which changes no value on the extended reals. The
   logistic function IS 1 / (1 + exp (−·)) there, which is how the reference spells it. So the two results agree entry by
   entry, and the only algebra is the regrouping (A + B) + (u + v) = ((A + u) + B) + v of one four-term sum, which needs no
   finiteness: the precondition is never opened.

   Proof/FrameBits.lean and Proof/FrameIdeal.lean: the kernel program runs to the end and leaves its arguments alone (at the
   word level and on the extended reals). Proof/PayloadAt.lean, Proof/RefAt.lean, Proof/Bridge.lean: one batch row of the
   kernel's body against the same row of the reference. Proof/PrefixAt.lean: what the host prepares, read at an entry.
   Proof/Cover.lean, Proof/KernelValue.lean: the sixteen blocks tile the two result arrays, which therefore end at the
   reference's values. The reference's own run and its stages read at an entry are generated modules, imported. -/
import proofs.«143810_j49349174231639_2_alg».proof.Defs
import proofs.«143810_j49349174231639_2_alg».proof.Proof.Gen.Kernel
import proofs.«143810_j49349174231639_2_alg».proof.Proof.Gen.KernelIdeal
import proofs.«143810_j49349174231639_2_alg».proof.Proof.Gen.ReferenceIdeal
import proofs.«143810_j49349174231639_2_alg».proof.Proof.Gen.ReferenceIdeal.Run
import proofs.«143810_j49349174231639_2_alg».proof.Proof.Gen.ReferenceIdeal.Read
import proofs.«143810_j49349174231639_2_alg».proof.Proof.Gen.Pre_finite_inputs
import proofs.«143810_j49349174231639_2_alg».proof.Proof.FrameBits
import proofs.«143810_j49349174231639_2_alg».proof.Proof.FrameIdeal
import proofs.«143810_j49349174231639_2_alg».proof.Proof.KernelValue
import Idealize.ShloMosaic.Adequacy
import Idealize.ShloMosaic.Init

noncomputable section

namespace Cert.Proof

open Idealize.ShloMosaic Idealize.SL.Sem

/-- The kernel program, read at the word level, terminates and leaves its arguments as launched. -/
theorem frame_kernel : Cert.frame_Kernel := fun m ρ _ => Cert.Kernel.Frame.frame m ρ

/-- The same on the extended reals. -/
theorem frame_kernelIdeal : Cert.frame_KernelIdeal := fun m ρ _ => Cert.KernelIdeal.Frame.frame m ρ

/-- The reference is a straight line of host operations: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the nineteen arguments, both programs end with the reference's new hidden state and new
    cell state of those arguments. -/
theorem algebraic : Cert.algebraic_KernelIdeal_ReferenceIdeal := by
  intro m ρ m' ρ' _ hagree
  refine ⟨fun c => Cert.LstmValue.G8 m c, fun c => Cert.LstmValue.G9 m c, Cert.LstmValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v36_eq, h0, h1, h2, h3, h4, h5, h6, h7, h8, h9, h10, h11, h12, h13, h14, h15, h16, h17, h18]
    rfl
  · obtain ⟨h0, h1, h2, h3, h4, h5, h6, h7, h8, h9, h10, h11, h12, h13, h14, h15, h16, h17, h18⟩ := hagree c
    rw [Cert.ReferenceIdeal.Read.val_main_v34_eq, h0, h1, h2, h3, h4, h5, h6, h7, h8, h9, h10, h11, h12, h13, h14, h15, h16, h17, h18]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
